-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_arg7 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S256x128 .f32) (main_arg3 : FVec F S256 .f32) (main_arg4 : FVec F S256x128 .f32) (main_arg5 : FVec F S128x256 .f32) (main_arg6 : FVec F S128 .f32) (main_arg7 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S640000x256 : Shape := ⟨2, ![640000, 256]⟩
abbrev S1x128 : Shape := ⟨2, ![1, 128]⟩

abbrev nBuf : Space → Nat
  | .hbm => 70
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S128x256, .f32⟩
  | .hbm, ⟨39, _⟩ => ⟨S1x256, .f32⟩
  | .hbm, ⟨40, _⟩ => ⟨S50000x256, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x256, .f32⟩
  | .hbm, ⟨50, _⟩ => ⟨S_, .f32⟩
  | .hbm, ⟨51, _⟩ => ⟨S50000x256, .f32⟩
  | .hbm, ⟨52, _⟩ => ⟨S640000x1, .i32⟩
  | .hbm, ⟨53, _⟩ => ⟨S50000x256, .f32⟩
  | .hbm, ⟨54, _⟩ => ⟨S_, .f32⟩
  | .hbm, ⟨55, _⟩ => ⟨S640000, .f32⟩
  | .hbm, ⟨56, _⟩ => ⟨S_, .f32⟩
  | .hbm, ⟨57, _⟩ => ⟨S50000, .f32⟩
  | .hbm, ⟨58, _⟩ => ⟨S640000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x256, .f32⟩
  | .hbm, ⟨65, _⟩ => ⟨S50000x256, .f32⟩
  | .hbm, ⟨66, _⟩ => ⟨S256x128, .f32⟩
  | .hbm, ⟨67, _⟩ => ⟨S256x128, .f32⟩
  | .hbm, ⟨68, _⟩ => ⟨S1x128, .f32⟩
  | .hbm, ⟨69, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S1x128, .f32⟩
  | .local _ .vmem, ⟨15, _⟩ => ⟨S256x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S2000x128_S128x256_S2000x256_1_0_0_1_n_n_wf : DotDims.WF S2000x128 S128x256 S2000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S640000x256 : Shape := ⟨2, ![640000, 256]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S1x640000, .i32⟩
  | .hbm, ⟨49, _⟩ => ⟨S640000, .i32⟩
  | .hbm, ⟨50, _⟩ => ⟨S1x640000, .i32⟩
  | .hbm, ⟨51, _⟩ => ⟨S640000, .i32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x256, .f32⟩
  | .hbm, ⟨61, _⟩ => ⟨S_, .f32⟩
  | .hbm, ⟨62, _⟩ => ⟨S50000x256, .f32⟩
  | .hbm, ⟨63, _⟩ => ⟨S640000x1, .i32⟩
  | .hbm, ⟨64, _⟩ => ⟨S50000x256, .f32⟩
  | .hbm, ⟨65, _⟩ => ⟨S_, .f32⟩
  | .hbm, ⟨66, _⟩ => ⟨S640000, .f32⟩
  | .hbm, ⟨67, _⟩ => ⟨S_, .f32⟩
  | .hbm, ⟨68, _⟩ => ⟨S50000, .f32⟩
  | .hbm, ⟨69, _⟩ => ⟨S640000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x256, .f32⟩
  | .hbm, ⟨76, _⟩ => ⟨S50000x256, .f32⟩
  | .hbm, ⟨77, _⟩ => ⟨S256x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S256x128, .f32⟩
  | .hbm, ⟨83, _⟩ => ⟨S50000x128, .f32⟩
  | .hbm, ⟨84, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x256_S50000x256_1_0_0_1_n_n_wf : DotDims.WF S50000x128 S128x256 S50000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S50000x256_S256x128_S50000x128_1_0_0_1_n_n_wf : DotDims.WF S50000x256 S256x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KBody0.lean ====
/-
  The first dense kernel's stored value, read at one element.

  The body loads a 2000-row block `a` of neighbourhood means, the same rows `x` of the features, the two
  weight matrices already transposed to [in, out] (`wl`, `wr`) and the bias as one row `b`; it rounds the four
  matrix operands to bf16 (the identity on extended reals), multiplies on the matrix unit into a zero
  accumulator, adds the two products, then the bias row broadcast over the rows, and takes the maximum with
  zero. At row `p`, channel `q` this is
      max ((∑ k, a p k · wl k q) + (∑ k, x p k · wr k q) + b 0 q) 0.
-/
import proofs.«133177_j2405181685958_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

local notation "D0" => dot_S2000x128_S128x256_S2000x256_1_0_0_1_n_n

/-- The left operand's row coordinate is the output's row. -/
theorem D0_lhs_row (i : S2000x256.Idx) (κ : dot_S2000x128_S128x256_S2000x256_1_0_0_1_n_n.contr.Idx) :
    (dot_S2000x128_S128x256_S2000x256_1_0_0_1_n_n.lhsIdx i κ 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

/-- The right operand's column coordinate is the output's column. -/
theorem D0_rhs_col (i : S2000x256.Idx) (κ : dot_S2000x128_S128x256_S2000x256_1_0_0_1_n_n.contr.Idx) :
    (dot_S2000x128_S128x256_S2000x256_1_0_0_1_n_n.rhsIdx i κ 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- A [2000,128] × [128,256] product into the zero accumulator, at (p, q): the sum over the 128 contracted
    coordinates of the entries' products. -/
theorem matmul_zero_apply {φ₁ φ₂ : FTy} (l : FVec Ideal S2000x128 φ₁) (r : FVec Ideal S128x256 φ₂) (p : Fin 2000) (q : Fin 256) :
    FloatOps.matmul dot_S2000x128_S128x256_S2000x256_1_0_0_1_n_n none l r (constant (F := Ideal) S2000x256 .f32 0x00000000#32) (ix2 p q)
      = ∑ k : Fin 128, l (ix2 p k) * r (ix2 k q) := by
  rw [Ideal.matmul_constant_zero_apply,
    ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q)
      ((contrEquiv1 dot_S2000x128_S128x256_S2000x256_1_0_0_1_n_n 128 rfl rfl).symm k) = ix2 p k :=
    funext fun a => Fin.ext (by
      match a with
      | ⟨0, _⟩ => exact D0_lhs_row _ _
      | ⟨1, _⟩ => exact (dot_S2000x128_S128x256_S2000x256_1_0_0_1_n_n.lhsIdx_val_of_single rfl _ _).trans hk)
  have er : dot_S2000x128_S128x256_S2000x256_1_0_0_1_n_n.rhsIdx (ix2 p q)
      ((contrEquiv1 dot_S2000x128_S128x256_S2000x256_1_0_0_1_n_n 128 rfl rfl).symm k) = ix2 k q :=
    funext fun a => Fin.ext (by
      match a with
      | ⟨0, _⟩ => exact (dot_S2000x128_S128x256_S2000x256_1_0_0_1_n_n.rhsIdx_val_of_single rfl _ _).trans hk
      | ⟨1, _⟩ => exact D0_rhs_col _ _)
  rw [el, er]

/-- The stored value at row `p`, channel `q`. -/
theorem k0_pay1_apply (a x : Vec Ideal S2000x128 .f32) (wl wr : Vec Ideal S128x256 .f32) (b : Vec Ideal S1x256 .f32)
    (p : Fin 2000) (q : Fin 256) :
    k0_pay1 (F := Ideal) a x wl wr b (ix2 p q)
      = max ((∑ k : Fin 128, a (ix2 p k) * wl (ix2 k q)) + (∑ k : Fin 128, x (ix2 p k) * wr (ix2 k q))
          + b (ix2 (0 : Fin 1) q)) (Ideal.ofBits .f32 0x00000000#32) := by
  unfold k0_pay1
  rw [maximumf_apply, addf_apply, addf_apply]
  simp only [matmul]
  rw [matmul_zero_apply, matmul_zero_apply, broadcastTo_1b_ab_apply]
  simp only [shapeCast_self, truncf_apply, broadcast_apply]
  rfl

end Cert.KernelIdeal.Body

end
-- ==== Proof.KRegion0.lean ====
/-
  What the first dense region leaves in its result array, for any contents `V` of the buffers at its entry.

  The grid has 25 points; point `t` reads rows 2000·t … 2000·t + 1999 of the mean array and of the feature array,
  the whole of the two transposed weight matrices and of the bias row, and writes rows 2000·t … 2000·t + 1999 of
  the result. So the result array ends as ONE function of the five staged arrays: at node `r`, channel `q`,
      max ((∑ k, A r k · WlT k q) + (∑ k, X r k · WrT k q) + b 0 q) 0
  (`hiddenStaged`). The 25 row blocks tile the 50000 rows: row `r` is in block `r / 2000`.
-/
import proofs.«133177_j2405181685958_1_alg».proof.Proof.Gen.KernelIdeal.Frame
import proofs.«133177_j2405181685958_1_alg».proof.Proof.KBody0
import Idealize.ShloMosaic.Lib.Pipeline.Value
import Idealize.ShloMosaic.PureOps.Ideal

noncomputable section

namespace Cert.KernelIdeal.Region0

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the staged arrays: mean rows `A`, feature rows `X`, the weights
    transposed to [in, out], the bias as a [1, 256] row. -/
def hiddenStaged (A X : S50000x128.Idx → EReal) (WlT WrT : S128x256.Idx → EReal) (b : S1x256.Idx → EReal) :
    S50000x256.Idx → EReal :=
  fun i => max ((∑ k : Fin 128, A (ix2 (i 0) k) * WlT (ix2 k (i 1))) + (∑ k : Fin 128, X (ix2 (i 0) k) * WrT (ix2 k (i 1)))
    + b (ix2 (0 : Fin 1) (i 1))) (Ideal.ofBits .f32 0x00000000#32)

/-- The printed index maps over the grid: the two row-blocked inputs and the output sit at block (t, 0), the weights
    and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A row of block `t` is a row of the array. -/
theorem row_lt (t : Fin cfg0.N) (p : Fin 2000) : 2000 * t.val + p.val < 50000 := by
  have hN : cfg0.N = 25 := N_0
  have := t.isLt; have := p.isLt; omega

/-- Block `t` of the mean array: rows 2000·t + p. -/
theorem iblk_mean (c : Dev nD) (t : Fin cfg0.N) (p : Fin 2000) (k : Fin 128) :
    (iblk0 V c 0 t : Vec Ideal S2000x128 .f32) (ix2 p k)
      = (V c main_v22 : S50000x128.Idx → EReal) (ix2 ⟨2000 * t.val + p.val, row_lt t p⟩ k) := by
  obtain ⟨e0, e1, -⟩ := idx_facts t
  unfold iblk0
  rw [View.read_apply]
  show V c main_v22 _ = V c main_v22 _
  refine congrArg (V c main_v22) ?_
  funext a; apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- Block `t` of the feature array: rows 2000·t + p. -/
theorem iblk_feat (c : Dev nD) (t : Fin cfg0.N) (p : Fin 2000) (k : Fin 128) :
    (iblk0 V c 1 t : Vec Ideal S2000x128 .f32) (ix2 p k)
      = (V c main_arg0 : S50000x128.Idx → EReal) (ix2 ⟨2000 * t.val + p.val, row_lt t p⟩ k) := by
  obtain ⟨-, -, e0, e1, -⟩ := idx_facts t
  unfold iblk0
  rw [View.read_apply]
  show V c main_arg0 _ = V c main_arg0 _
  refine congrArg (V c main_arg0) ?_
  funext a; apply Fin.ext
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

/-- Every point reads the whole transposed left weight matrix. -/
theorem iblk_wl (c : Dev nD) (t : Fin cfg0.N) (k : Fin 128) (q : Fin 256) :
    (iblk0 V c 2 t : Vec Ideal S128x256 .f32) (ix2 k q) = (V c main_v23 : S128x256.Idx → EReal) (ix2 k q) := by
  obtain ⟨-, -, -, -, e0, e1, -⟩ := idx_facts t
  unfold iblk0
  rw [View.read_apply]
  show V c main_v23 _ = V c main_v23 _
  refine congrArg (V c main_v23) ?_
  funext a; apply Fin.ext
  match a with
  | ⟨0, _⟩ => show win0_2.index t (0 : Fin 2) * 128 + 1 * k.val = k.val; rw [e0]; omega
  | ⟨1, _⟩ => show win0_2.index t (1 : Fin 2) * 256 + 1 * q.val = q.val; rw [e1]; omega

/-- Every point reads the whole bias row. -/
theorem iblk_bias (c : Dev nD) (t : Fin cfg0.N) (u : Fin 1) (q : Fin 256) :
    (iblk0 V c 3 t : Vec Ideal S1x256 .f32) (ix2 u q) = (V c main_v25 : S1x256.Idx → EReal) (ix2 u q) := by
  obtain ⟨-, -, -, -, -, -, e0, e1, -⟩ := idx_facts t
  unfold iblk0
  rw [View.read_apply]
  show V c main_v25 _ = V c main_v25 _
  refine congrArg (V c main_v25) ?_
  funext a; apply Fin.ext
  match a with
  | ⟨0, _⟩ => show win0_3.index t (0 : Fin 2) * 1 + 1 * u.val = u.val; rw [e0]; omega
  | ⟨1, _⟩ => show win0_3.index t (1 : Fin 2) * 256 + 1 * q.val = q.val; rw [e1]; omega

/-- Every point reads the whole transposed right weight matrix. -/
theorem iblk_wr (c : Dev nD) (t : Fin cfg0.N) (k : Fin 128) (q : Fin 256) :
    (iblk0 V c 4 t : Vec Ideal S128x256 .f32) (ix2 k q) = (V c main_v24 : S128x256.Idx → EReal) (ix2 k q) := by
  obtain ⟨-, -, -, -, -, -, -, -, e0, e1, -⟩ := idx_facts t
  unfold iblk0
  rw [View.read_apply]
  show V c main_v24 _ = V c main_v24 _
  refine congrArg (V c main_v24) ?_
  funext a; apply Fin.ext
  match a with
  | ⟨0, _⟩ => show win0_4.index t (0 : Fin 2) * 128 + 1 * k.val = k.val; rw [e0]; omega
  | ⟨1, _⟩ => show win0_4.index t (1 : Fin 2) * 256 + 1 * q.val = q.val; rw [e1]; omega

/-- The body's value at row `p` of a block whose rows are rows `r` of the arrays is `hiddenStaged` at row `r`. -/
theorem block_value (A X : S50000x128.Idx → EReal) (WlT WrT : S128x256.Idx → EReal) (b : S1x256.Idx → EReal)
    (x0 x1 : Vec Ideal S2000x128 .f32) (x2 x4 : Vec Ideal S128x256 .f32) (x3 : Vec Ideal S1x256 .f32)
    (r : Fin 50000) (p : Fin 2000) (q : Fin 256)
    (h0 : ∀ k : Fin 128, x0 (ix2 p k) = A (ix2 r k)) (h1 : ∀ k : Fin 128, x1 (ix2 p k) = X (ix2 r k))
    (h2 : ∀ k : Fin 128, x2 (ix2 k q) = WlT (ix2 k q)) (h4 : ∀ k : Fin 128, x4 (ix2 k q) = WrT (ix2 k q))
    (h3 : x3 (ix2 (0 : Fin 1) q) = b (ix2 (0 : Fin 1) q)) :
    k0_pay1 (F := Ideal) x0 x1 x2 x4 x3 (ix2 p q) = hiddenStaged A X WlT WrT b (ix2 r q) := by
  rw [k0_pay1_apply]
  unfold hiddenStaged
  simp only [h0, h1, h2, h4, h3]

/-- What point `t` writes back is block `t` of `hiddenStaged` of the staged arrays. -/
theorem flushed_eq (c : Dev nD) (t : Fin cfg0.N) :
    (dat0 V c).flushed 5 t = ((cfg0.win 5).blk t).view.read (Elt Ideal)
      (hiddenStaged (V c main_v22) (V c main_arg0) (V c main_v23) (V c main_v24) (V c main_v25)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  obtain ⟨-, -, -, -, -, -, -, -, -, -, e0, e1⟩ := idx_facts t
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = hiddenStaged (V c main_v22) (V c main_arg0) (V c main_v23) (V c main_v24) (V c main_v25) (((cfg0.win 5).blk t).view.emb (ix2 p q))
  have hemb : ((cfg0.win 5).blk t).view.emb (ix2 p q) = ix2 ⟨2000 * t.val + p.val, row_lt t p⟩ q := by
    funext a; apply Fin.ext
    match a with
    | ⟨0, _⟩ => show win0_5.index t (0 : Fin 2) * 2000 + 1 * p.val = 2000 * t.val + p.val; rw [e0]; omega
    | ⟨1, _⟩ => show win0_5.index t (1 : Fin 2) * 256 + 1 * q.val = q.val; rw [e1]; omega
  rw [hemb]
  exact block_value (V c main_v22) (V c main_arg0) (V c main_v23) (V c main_v24) (V c main_v25)
    (iblk0 V c 0 t) (iblk0 V c 1 t) (iblk0 V c 2 t) (iblk0 V c 4 t) (iblk0 V c 3 t) ⟨2000 * t.val + p.val, row_lt t p⟩ p q
    (fun k => iblk_mean V c t p k) (fun k => iblk_feat V c t p k) (fun k => iblk_wl V c t k q) (fun k => iblk_wr V c t k q)
    (iblk_bias V c t 0 q)

/-- An index of the result array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v26).slice (win0_5.rect t)).set ↔ _
  rw [View.set_slice_whole, Rect.mem_set_unit]
  exact Iff.rfl

/-- The 25 row blocks tile the array: row `r` is in block `r / 2000`. -/
theorem cover (i : S50000x256.Idx) :
    ∃ t : Fin cfg0.N, (cfg0.win 5).flush t = true ∧ i ∈ ((cfg0.win 5).blk t).view.set := by
  have hN : cfg0.N = 25 := N_0
  have hi0 : (i 0).val < 50000 := (i 0).isLt
  have hi1 : (i 1).val < 256 := (i 1).isLt
  have ht : (i 0).val / 2000 < cfg0.N := by omega
  obtain ⟨-, -, -, -, -, -, -, -, -, -, e0, e1⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 256 ≤ (i 1).val
      ∧ (i 1).val < win0_5.index ⟨(i 0).val / 2000, ht⟩ (1 : Fin 2) * 256 + 256
    rw [e1]; omega

/-- The result array after the region. -/
theorem final (c : Dev nD) :
    (dat0 V c).arrAt 5 cfg0.N = hiddenStaged (V c main_v22) (V c main_arg0) (V c main_v23) (V c main_v24) (V c main_v25) :=
  (dat0 V c).arrAt_eq_of_cover 5 _ (fun t _ => flushed_eq V c t) cover

end Cert.KernelIdeal.Region0

end
-- ==== Proof.KBody1.lean ====
/-
  The second dense kernel's stored value, read at one element.

  The same body as the first layer's at the second layer's widths — a 2000-row block `a` of neighbourhood means
  of the hidden features, the same rows `x` of the hidden features, the weights transposed to [in, out] = [256, 128],
  the bias as one row — and without the final maximum. At row `p`, channel `q`:
      (∑ k, a p k · wl k q) + (∑ k, x p k · wr k q) + b 0 q.
-/
import proofs.«133177_j2405181685958_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The left operand's row coordinate is the output's row. -/
theorem D1_lhs_row (i : S2000x128.Idx) (κ : dot_S2000x256_S256x128_S2000x128_1_0_0_1_n_n.contr.Idx) :
    (dot_S2000x256_S256x128_S2000x128_1_0_0_1_n_n.lhsIdx i κ 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl

/-- The right operand's column coordinate is the output's column. -/
theorem D1_rhs_col (i : S2000x128.Idx) (κ : dot_S2000x256_S256x128_S2000x128_1_0_0_1_n_n.contr.Idx) :
    (dot_S2000x256_S256x128_S2000x128_1_0_0_1_n_n.rhsIdx i κ 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- A [2000,256] × [256,128] product into the zero accumulator, at (p, q): the sum over the 256 contracted
    coordinates of the entries' products. -/
theorem matmul_zero_apply₁ {φ₁ φ₂ : FTy} (l : FVec Ideal S2000x256 φ₁) (r : FVec Ideal S256x128 φ₂) (p : Fin 2000) (q : Fin 128) :
    FloatOps.matmul dot_S2000x256_S256x128_S2000x128_1_0_0_1_n_n none l r (constant (F := Ideal) S2000x128 .f32 0x00000000#32) (ix2 p q)
      = ∑ k : Fin 256, l (ix2 p k) * r (ix2 k q) := by
  rw [Ideal.matmul_constant_zero_apply,
    ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q)
      ((contrEquiv1 dot_S2000x256_S256x128_S2000x128_1_0_0_1_n_n 256 rfl rfl).symm k) = ix2 p k :=
    funext fun a => Fin.ext (by
      match a with
      | ⟨0, _⟩ => exact D1_lhs_row _ _
      | ⟨1, _⟩ => exact (dot_S2000x256_S256x128_S2000x128_1_0_0_1_n_n.lhsIdx_val_of_single rfl _ _).trans hk)
  have er : dot_S2000x256_S256x128_S2000x128_1_0_0_1_n_n.rhsIdx (ix2 p q)
      ((contrEquiv1 dot_S2000x256_S256x128_S2000x128_1_0_0_1_n_n 256 rfl rfl).symm k) = ix2 k q :=
    funext fun a => Fin.ext (by
      match a with
      | ⟨0, _⟩ => exact (dot_S2000x256_S256x128_S2000x128_1_0_0_1_n_n.rhsIdx_val_of_single rfl _ _).trans hk
      | ⟨1, _⟩ => exact D1_rhs_col _ _)
  rw [el, er]

/-- The stored value at row `p`, channel `q`. -/
theorem k1_pay1_apply (a x : Vec Ideal S2000x256 .f32) (wl wr : Vec Ideal S256x128 .f32) (b : Vec Ideal S1x128 .f32)
    (p : Fin 2000) (q : Fin 128) :
    k1_pay1 (F := Ideal) a x wl wr b (ix2 p q)
      = (∑ k : Fin 256, a (ix2 p k) * wl (ix2 k q)) + (∑ k : Fin 256, x (ix2 p k) * wr (ix2 k q))
          + b (ix2 (0 : Fin 1) q) := by
  unfold k1_pay1
  rw [addf_apply, addf_apply]
  simp only [matmul]
  rw [matmul_zero_apply₁, matmul_zero_apply₁, broadcastTo_1b_ab_apply]
  simp only [shapeCast_self, truncf_apply]

end Cert.KernelIdeal.Body

end
-- ==== Proof.KRegion1.lean ====
/-
  What the second dense region leaves in its result array, for any contents `V` of the buffers at its entry.

  The grid has 25 points; point `t` reads rows 2000·t … 2000·t + 1999 of the mean array and of the hidden-feature
  array (both 256 wide), the whole of the two transposed weight matrices and of the bias row, and writes rows
  2000·t … 2000·t + 1999 of the 128-wide result. The result array ends as ONE function of the five staged arrays:
  at node `r`, channel `q`,
      (∑ k, A r k · WlT k q) + (∑ k, X r k · WrT k q) + b 0 q
  (`outputStaged`). The 25 row blocks tile the 50000 rows: row `r` is in block `r / 2000`.
-/
import proofs.«133177_j2405181685958_1_alg».proof.Proof.Gen.KernelIdeal.Frame
import proofs.«133177_j2405181685958_1_alg».proof.Proof.KBody1
import Idealize.ShloMosaic.Lib.Pipeline.Value
import Idealize.ShloMosaic.PureOps.Ideal

noncomputable section

namespace Cert.KernelIdeal.Region1

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the staged arrays: mean rows `A`, feature rows `X`, the weights
    transposed to [in, out], the bias as a [1, 128] row. -/
def outputStaged (A X : S50000x256.Idx → EReal) (WlT WrT : S256x128.Idx → EReal) (b : S1x128.Idx → EReal) :
    S50000x128.Idx → EReal :=
  fun i => (∑ k : Fin 256, A (ix2 (i 0) k) * WlT (ix2 k (i 1))) + (∑ k : Fin 256, X (ix2 (i 0) k) * WrT (ix2 k (i 1)))
    + b (ix2 (0 : Fin 1) (i 1))

/-- The printed index maps over the grid: the two row-blocked inputs and the output sit at block (t, 0), the weights
    and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A row of block `t` is a row of the array. -/
theorem row_lt (t : Fin cfg1.N) (p : Fin 2000) : 2000 * t.val + p.val < 50000 := by
  have hN : cfg1.N = 25 := N_1
  have := t.isLt; have := p.isLt; omega

/-- Block `t` of the mean array: rows 2000·t + p. -/
theorem iblk_mean (c : Dev nD) (t : Fin cfg1.N) (p : Fin 2000) (k : Fin 256) :
    (iblk1 V c 0 t : Vec Ideal S2000x256 .f32) (ix2 p k)
      = (V c main_v45 : S50000x256.Idx → EReal) (ix2 ⟨2000 * t.val + p.val, row_lt t p⟩ k) := by
  obtain ⟨e0, e1, -⟩ := idx_facts t
  unfold iblk1
  rw [View.read_apply]
  show V c main_v45 _ = V c main_v45 _
  refine congrArg (V c main_v45) ?_
  funext a; apply Fin.ext
  match a with
  | ⟨0, _⟩ => show win1_0.index t (0 : Fin 2) * 2000 + 1 * p.val = 2000 * t.val + p.val; rw [e0]; omega
  | ⟨1, _⟩ => show win1_0.index t (1 : Fin 2) * 256 + 1 * k.val = k.val; rw [e1]; omega

/-- Block `t` of the feature array: rows 2000·t + p. -/
theorem iblk_feat (c : Dev nD) (t : Fin cfg1.N) (p : Fin 2000) (k : Fin 256) :
    (iblk1 V c 1 t : Vec Ideal S2000x256 .f32) (ix2 p k)
      = (V c main_v26 : S50000x256.Idx → EReal) (ix2 ⟨2000 * t.val + p.val, row_lt t p⟩ k) := by
  obtain ⟨-, -, e0, e1, -⟩ := idx_facts t
  unfold iblk1
  rw [View.read_apply]
  show V c main_v26 _ = V c main_v26 _
  refine congrArg (V c main_v26) ?_
  funext a; apply Fin.ext
  match a with
  | ⟨0, _⟩ => show win1_1.index t (0 : Fin 2) * 2000 + 1 * p.val = 2000 * t.val + p.val; rw [e0]; omega
  | ⟨1, _⟩ => show win1_1.index t (1 : Fin 2) * 256 + 1 * k.val = k.val; rw [e1]; omega

/-- Every point reads the whole transposed left weight matrix. -/
theorem iblk_wl (c : Dev nD) (t : Fin cfg1.N) (k : Fin 256) (q : Fin 128) :
    (iblk1 V c 2 t : Vec Ideal S256x128 .f32) (ix2 k q) = (V c main_v46 : S256x128.Idx → EReal) (ix2 k q) := by
  obtain ⟨-, -, -, -, e0, e1, -⟩ := idx_facts t
  unfold iblk1
  rw [View.read_apply]
  show V c main_v46 _ = V c main_v46 _
  refine congrArg (V c main_v46) ?_
  funext a; apply Fin.ext
  match a with
  | ⟨0, _⟩ => show win1_2.index t (0 : Fin 2) * 256 + 1 * k.val = k.val; rw [e0]; omega
  | ⟨1, _⟩ => show win1_2.index t (1 : Fin 2) * 128 + 1 * q.val = q.val; rw [e1]; omega

/-- Every point reads the whole bias row. -/
theorem iblk_bias (c : Dev nD) (t : Fin cfg1.N) (u : Fin 1) (q : Fin 128) :
    (iblk1 V c 3 t : Vec Ideal S1x128 .f32) (ix2 u q) = (V c main_v48 : S1x128.Idx → EReal) (ix2 u q) := by
  obtain ⟨-, -, -, -, -, -, e0, e1, -⟩ := idx_facts t
  unfold iblk1
  rw [View.read_apply]
  show V c main_v48 _ = V c main_v48 _
  refine congrArg (V c main_v48) ?_
  funext a; apply Fin.ext
  match a with
  | ⟨0, _⟩ => show win1_3.index t (0 : Fin 2) * 1 + 1 * u.val = u.val; rw [e0]; omega
  | ⟨1, _⟩ => show win1_3.index t (1 : Fin 2) * 128 + 1 * q.val = q.val; rw [e1]; omega

/-- Every point reads the whole transposed right weight matrix. -/
theorem iblk_wr (c : Dev nD) (t : Fin cfg1.N) (k : Fin 256) (q : Fin 128) :
    (iblk1 V c 4 t : Vec Ideal S256x128 .f32) (ix2 k q) = (V c main_v47 : S256x128.Idx → EReal) (ix2 k q) := by
  obtain ⟨-, -, -, -, -, -, -, -, e0, e1, -⟩ := idx_facts t
  unfold iblk1
  rw [View.read_apply]
  show V c main_v47 _ = V c main_v47 _
  refine congrArg (V c main_v47) ?_
  funext a; apply Fin.ext
  match a with
  | ⟨0, _⟩ => show win1_4.index t (0 : Fin 2) * 256 + 1 * k.val = k.val; rw [e0]; omega
  | ⟨1, _⟩ => show win1_4.index t (1 : Fin 2) * 128 + 1 * q.val = q.val; rw [e1]; omega

/-- The body's value at row `p` of a block whose rows are rows `r` of the arrays is `outputStaged` at row `r`. -/
theorem block_value (A X : S50000x256.Idx → EReal) (WlT WrT : S256x128.Idx → EReal) (b : S1x128.Idx → EReal)
    (x0 x1 : Vec Ideal S2000x256 .f32) (x2 x4 : Vec Ideal S256x128 .f32) (x3 : Vec Ideal S1x128 .f32)
    (r : Fin 50000) (p : Fin 2000) (q : Fin 128)
    (h0 : ∀ k : Fin 256, x0 (ix2 p k) = A (ix2 r k)) (h1 : ∀ k : Fin 256, x1 (ix2 p k) = X (ix2 r k))
    (h2 : ∀ k : Fin 256, x2 (ix2 k q) = WlT (ix2 k q)) (h4 : ∀ k : Fin 256, x4 (ix2 k q) = WrT (ix2 k q))
    (h3 : x3 (ix2 (0 : Fin 1) q) = b (ix2 (0 : Fin 1) q)) :
    k1_pay1 (F := Ideal) x0 x1 x2 x4 x3 (ix2 p q) = outputStaged A X WlT WrT b (ix2 r q) := by
  rw [k1_pay1_apply]
  unfold outputStaged
  simp only [h0, h1, h2, h4, h3]

/-- What point `t` writes back is block `t` of `outputStaged` of the staged arrays. -/
theorem flushed_eq (c : Dev nD) (t : Fin cfg1.N) :
    (dat1 V c).flushed 5 t = ((cfg1.win 5).blk t).view.read (Elt Ideal)
      (outputStaged (V c main_v45) (V c main_v26) (V c main_v46) (V c main_v47) (V c main_v48)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  obtain ⟨-, -, -, -, -, -, -, -, -, -, e0, e1⟩ := idx_facts t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = outputStaged (V c main_v45) (V c main_v26) (V c main_v46) (V c main_v47) (V c main_v48) (((cfg1.win 5).blk t).view.emb (ix2 p q))
  have hemb : ((cfg1.win 5).blk t).view.emb (ix2 p q) = ix2 ⟨2000 * t.val + p.val, row_lt t p⟩ q := by
    funext a; apply Fin.ext
    match a with
    | ⟨0, _⟩ => show win1_5.index t (0 : Fin 2) * 2000 + 1 * p.val = 2000 * t.val + p.val; rw [e0]; omega
    | ⟨1, _⟩ => show win1_5.index t (1 : Fin 2) * 128 + 1 * q.val = q.val; rw [e1]; omega
  rw [hemb]
  exact block_value (V c main_v45) (V c main_v26) (V c main_v46) (V c main_v47) (V c main_v48)
    (iblk1 V c 0 t) (iblk1 V c 1 t) (iblk1 V c 2 t) (iblk1 V c 4 t) (iblk1 V c 3 t) ⟨2000 * t.val + p.val, row_lt t p⟩ p q
    (fun k => iblk_mean V c t p k) (fun k => iblk_feat V c t p k) (fun k => iblk_wl V c t k q) (fun k => iblk_wr V c t k q)
    (iblk_bias V c t 0 q)

/-- An index of the result array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v49).slice (win1_5.rect t)).set ↔ _
  rw [View.set_slice_whole, Rect.mem_set_unit]
  exact Iff.rfl

/-- The 25 row blocks tile the array: row `r` is in block `r / 2000`. -/
theorem cover (i : S50000x128.Idx) :
    ∃ t : Fin cfg1.N, (cfg1.win 5).flush t = true ∧ i ∈ ((cfg1.win 5).blk t).view.set := by
  have hN : cfg1.N = 25 := N_1
  have hi0 : (i 0).val < 50000 := (i 0).isLt
  have hi1 : (i 1).val < 128 := (i 1).isLt
  have ht : (i 0).val / 2000 < cfg1.N := by omega
  obtain ⟨-, -, -, -, -, -, -, -, -, -, e0, e1⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e1]; omega

/-- The result array after the region. -/
theorem final (c : Dev nD) :
    (dat1 V c).arrAt 5 cfg1.N = outputStaged (V c main_v45) (V c main_v26) (V c main_v46) (V c main_v47) (V c main_v48) :=
  (dat1 V c).arrAt_eq_of_cover 5 _ (fun t _ => flushed_eq V c t) cover

end Cert.KernelIdeal.Region1

end
-- ==== Proof.Mean.lean ====
/-
  The neighbourhood mean, as one function of a feature array and the edge list.

  Both programs compute it with the same host operations: the source ids are wrapped (a negative id `s` reads row
  `s + 50000`), the source rows are gathered, the gathered rows are summed into their destination rows
  (a scatter-add from zero), the in-degree of every node is counted the same way from ones and clamped below by
  one, and the row sums are divided by the clamped degrees. Nothing in the certificate depends on what these
  operations compute: the chain is named here once, at the two feature widths, and carried as a whole.
-/
import proofs.«133177_j2405181685958_1_alg».proof.Proof.Gen.KernelIdeal
import Idealize.ShloMosaic.PureOps.Ideal

noncomputable section

namespace Cert.KernelIdeal.Mean

open Cert.KernelIdeal Cert.KernelIdeal.Gen Idealize.ShloMosaic

/-- An edge list's row of node ids. -/
abbrev Ids : Type := (⟨S640000, .i32⟩ : BufTy).Contents (Elt Ideal)

/-- The source ids wrapped into [0, 50000) the way jnp indexing wraps a negative index, as a column of start rows. -/
def srcRows (s : Ids) : (⟨S640000x1, .i32⟩ : BufTy).Contents (Elt Ideal) :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 50000#32))) s)

/-- Every node's in-degree, clamped below by one. -/
def degree (d : Ids) : (⟨S50000, .f32⟩ : BufTy).Contents (Elt Ideal) :=
  maximumf
    (Host.scatterAdd scatter_S50000_S640000x1_S640000_n_0_0_1
      (broadcastInDim S50000 ![] bcast_S_S50000 (constant (F := Ideal) S_ .f32 0x00000000#32))
      (broadcastInDim S640000x1 ![0] bcast_S640000_S640000x1_0 d)
      (broadcastInDim S640000 ![] bcast_S_S640000 (constant (F := Ideal) S_ .f32 0x3F800000#32)))
    (broadcastInDim S50000 ![] bcast_S_S50000 (constant (F := Ideal) S_ .f32 0x3F800000#32))

/-- The mean of the in-neighbours' rows of a 128-wide feature array. -/
def mean128 (f : (⟨S50000x128, .f32⟩ : BufTy).Contents (Elt Ideal)) (s d : Ids) : (⟨S50000x128, .f32⟩ : BufTy).Contents (Elt Ideal) :=
  Host.divf
    (Host.scatterAdd scatter_S50000x128_S640000x1_S640000x128_1_0_0_1
      (broadcastInDim S50000x128 ![] bcast_S_S50000x128 (constant (F := Ideal) S_ .f32 0x00000000#32))
      (broadcastInDim S640000x1 ![0] bcast_S640000_S640000x1_0 d)
      (Host.gather gather_S50000x128_S640000x1_S640000x128_1_0_n_n_0_1_1128 f (srcRows s)))
    (broadcastInDim S50000x128 ![0, 1] bcast_S50000x1_S50000x128_0_1
      (broadcastInDim S50000x1 ![0] bcast_S50000_S50000x1_0 (degree d)))

/-- The mean of the in-neighbours' rows of a 256-wide feature array. -/
def mean256 (f : (⟨S50000x256, .f32⟩ : BufTy).Contents (Elt Ideal)) (s d : Ids) : (⟨S50000x256, .f32⟩ : BufTy).Contents (Elt Ideal) :=
  Host.divf
    (Host.scatterAdd scatter_S50000x256_S640000x1_S640000x256_1_0_0_1
      (broadcastInDim S50000x256 ![] bcast_S_S50000x256 (constant (F := Ideal) S_ .f32 0x00000000#32))
      (broadcastInDim S640000x1 ![0] bcast_S640000_S640000x1_0 d)
      (Host.gather gather_S50000x256_S640000x1_S640000x256_1_0_n_n_0_1_1256 f (srcRows s)))
    (broadcastInDim S50000x256 ![0, 1] bcast_S50000x1_S50000x256_0_1
      (broadcastInDim S50000x1 ![0] bcast_S50000_S50000x1_0 (degree d)))

/-- The two id rows of the edge list: row 0 the sources, row 1 the destinations. -/
def srcIds (e : (⟨S2x640000, .i32⟩ : BufTy).Contents (Elt Ideal)) : Ids :=
  shapeCast _ (extractStridedSlice S1x640000 ![0, 0] e slices_S2x640000_S1x640000_0_0) shapeCasts_S1x640000_S640000
def dstIds (e : (⟨S2x640000, .i32⟩ : BufTy).Contents (Elt Ideal)) : Ids :=
  shapeCast _ (extractStridedSlice S1x640000 ![1, 0] e slices_S2x640000_S1x640000_1_0) shapeCasts_S1x640000_S640000

end Cert.KernelIdeal.Mean

end
-- ==== Proof.Spec.lean ====
/-
  The mathematics of the two-layer SAGE network, on the extended reals.

  One layer takes, for each node `r`, the mean `A r ·` of its in-neighbours' features and the node's own
  features `X r ·`, and returns for each output channel `q`
      (∑ k, A r k · Wl q k) + (∑ k, X r k · Wr q k) + b q
  with both weight matrices stored [out, in]. The fused kernel adds the bias after the two products; the
  reference adds it to the first product and the second product afterwards. Addition on the extended reals
  is commutative and associative at every value, the infinite ones included, so the two groupings are one
  number (`layerAt_eq_biasFirst`); no finiteness of the inputs is used. The network is the first layer
  followed by `max · 0`, then the second layer on the result. How the neighbourhood mean is computed (a row
  gather, two scatter-adds, a clamp of the degree and a quotient) is the same in both programs and enters
  here only as a function parameter.
-/
import Idealize.ShloMosaic.PureOps.Ideal
import Idealize.ShloMosaic.Lib.ValueIdx

noncomputable section

namespace Cert.Sage

open Idealize.ShloMosaic Idealize.ShloMosaic.ValueIdx

/-- One layer at node `r` and output channel `q`, the bias added last. -/
def layerAt {N Cin Cout : Nat} (A X : (⟨2, ![N, Cin]⟩ : Shape).Idx → EReal)
    (Wl Wr : (⟨2, ![Cout, Cin]⟩ : Shape).Idx → EReal) (b : (⟨1, ![Cout]⟩ : Shape).Idx → EReal)
    (r : Fin N) (q : Fin Cout) : EReal :=
  (∑ k : Fin Cin, A (ix2 r k) * Wl (ix2 q k)) + (∑ k : Fin Cin, X (ix2 r k) * Wr (ix2 q k)) + b (ix1 q)

/-- The same number with the bias added to the first product before the second product is added. -/
theorem layerAt_eq_biasFirst {N Cin Cout : Nat} (A X : (⟨2, ![N, Cin]⟩ : Shape).Idx → EReal)
    (Wl Wr : (⟨2, ![Cout, Cin]⟩ : Shape).Idx → EReal) (b : (⟨1, ![Cout]⟩ : Shape).Idx → EReal)
    (r : Fin N) (q : Fin Cout) :
    (∑ k : Fin Cin, A (ix2 r k) * Wl (ix2 q k)) + b (ix1 q) + (∑ k : Fin Cin, X (ix2 r k) * Wr (ix2 q k))
      = layerAt A X Wl Wr b r q := by
  unfold layerAt
  exact add_right_comm _ _ _

/-- The first layer's output: the layer, then the maximum with the zero word's value. -/
def hidden (A X : (⟨2, ![50000, 128]⟩ : Shape).Idx → EReal) (Wl Wr : (⟨2, ![256, 128]⟩ : Shape).Idx → EReal)
    (b : (⟨1, ![256]⟩ : Shape).Idx → EReal) : (⟨2, ![50000, 256]⟩ : Shape).Idx → EReal :=
  fun i => max (layerAt A X Wl Wr b (i 0) (i 1)) (Ideal.ofBits .f32 0x00000000#32)

/-- The second layer's output: the layer, no activation. -/
def output (A H : (⟨2, ![50000, 256]⟩ : Shape).Idx → EReal) (Wl Wr : (⟨2, ![128, 256]⟩ : Shape).Idx → EReal)
    (b : (⟨1, ![128]⟩ : Shape).Idx → EReal) : (⟨2, ![50000, 128]⟩ : Shape).Idx → EReal :=
  fun i => layerAt A H Wl Wr b (i 0) (i 1)

/-- The network: `mean₁`, `mean₂` are the neighbourhood means at the two widths, as functions of a feature array. -/
def network (mean₁ : ((⟨2, ![50000, 128]⟩ : Shape).Idx → EReal) → (⟨2, ![50000, 128]⟩ : Shape).Idx → EReal)
    (mean₂ : ((⟨2, ![50000, 256]⟩ : Shape).Idx → EReal) → (⟨2, ![50000, 256]⟩ : Shape).Idx → EReal)
    (x : (⟨2, ![50000, 128]⟩ : Shape).Idx → EReal)
    (W1l W1r : (⟨2, ![256, 128]⟩ : Shape).Idx → EReal) (b1 : (⟨1, ![256]⟩ : Shape).Idx → EReal)
    (W2l W2r : (⟨2, ![128, 256]⟩ : Shape).Idx → EReal) (b2 : (⟨1, ![128]⟩ : Shape).Idx → EReal) :
    (⟨2, ![50000, 128]⟩ : Shape).Idx → EReal :=
  output (mean₂ (hidden (mean₁ x) x W1l W1r b1)) (hidden (mean₁ x) x W1l W1r b1) W2l W2r b2

end Cert.Sage

end
-- ==== Proof.KValue.lean ====
/-
  The idealized kernel's result, as the network of the specification applied to the argument arrays.

  Reading the boundary contents of the run back to the arguments: the first region is entered with the mean of
  the features' in-neighbour rows, the features, the two first-layer weight matrices transposed and the bias as a
  row, so it leaves the hidden features `hidden`; the host operations between the regions take the mean of the
  hidden features' in-neighbour rows with the same edge list, and transpose the second layer's weights, so the
  second region leaves `output`. A weight matrix transposed and read at (k, q) is the matrix at (q, k); a bias
  vector cast to one row and read at (0, q) is the vector at q.
-/
import proofs.«133177_j2405181685958_1_alg».proof.Proof.Gen.KernelIdeal.Frame
import proofs.«133177_j2405181685958_1_alg».proof.Proof.KRegion0
import proofs.«133177_j2405181685958_1_alg».proof.Proof.KRegion1
import proofs.«133177_j2405181685958_1_alg».proof.Proof.Mean
import proofs.«133177_j2405181685958_1_alg».proof.Proof.Spec
import Idealize.ShloMosaic.Lib.StableHlo.Run
import Idealize.ShloMosaic.Lib.ValueLayout

noncomputable section

namespace Cert.KernelIdeal.RunValue

open Cert.KernelIdeal Cert.KernelIdeal.Gen Cert.KernelIdeal.Mean
open Idealize.ShloMosaic Idealize.ShloMosaic.TcCoe Idealize.SL.Sem Idealize.ShloMosaic.StableHlo
open Idealize.ShloMosaic.ValueIdx

/-! ## The staged forms are the specification's -/

/-- The first region's function of the staged arrays, at weights transposed from [out, in] and the bias cast to a
    row, is the specification's hidden layer. -/
theorem hiddenStaged_eq (A X : S50000x128.Idx → EReal) (Wl Wr : S256x128.Idx → EReal) (b : S256.Idx → EReal) :
    Region0.hiddenStaged A X (transpose S128x256 [1, 0] Wl transposes_S256x128_S128x256_1_0)
        (transpose S128x256 [1, 0] Wr transposes_S256x128_S128x256_1_0) (shapeCast S1x256 b shapeCasts_S256_S1x256)
      = Cert.Sage.hidden A X Wl Wr b := by
  funext i
  obtain ⟨r, q, rfl⟩ : ∃ (r : Fin 50000) (q : Fin 256), i = ix2 r q := ⟨i 0, i 1, eq_ix2 i⟩
  show max ((∑ k : Fin 128, A (ix2 r k) * transpose S128x256 [1, 0] Wl transposes_S256x128_S128x256_1_0 (ix2 k q))
        + (∑ k : Fin 128, X (ix2 r k) * transpose S128x256 [1, 0] Wr transposes_S256x128_S128x256_1_0 (ix2 k q))
        + shapeCast S1x256 b shapeCasts_S256_S1x256 (ix2 (0 : Fin 1) q)) (Ideal.ofBits .f32 0x00000000#32)
    = max ((∑ k : Fin 128, A (ix2 r k) * Wl (ix2 q k)) + (∑ k : Fin 128, X (ix2 r k) * Wr (ix2 q k)) + b (ix1 q))
        (Ideal.ofBits .f32 0x00000000#32)
  have hl : ∀ k : Fin 128, transpose S128x256 [1, 0] Wl transposes_S256x128_S128x256_1_0 (ix2 k q) = Wl (ix2 q k) :=
    fun k => transpose_ix2_apply Wl _ k q
  have hr : ∀ k : Fin 128, transpose S128x256 [1, 0] Wr transposes_S256x128_S128x256_1_0 (ix2 k q) = Wr (ix2 q k) :=
    fun k => transpose_ix2_apply Wr _ k q
  simp only [hl, hr, shapeCast_a_1a_apply]

/-- The second region's function of the staged arrays, likewise, is the specification's output layer. -/
theorem outputStaged_eq (A X : S50000x256.Idx → EReal) (Wl Wr : S128x256.Idx → EReal) (b : S128.Idx → EReal) :
    Region1.outputStaged A X (transpose S256x128 [1, 0] Wl transposes_S128x256_S256x128_1_0)
        (transpose S256x128 [1, 0] Wr transposes_S128x256_S256x128_1_0) (shapeCast S1x128 b shapeCasts_S128_S1x128)
      = Cert.Sage.output A X Wl Wr b := by
  funext i
  obtain ⟨r, q, rfl⟩ : ∃ (r : Fin 50000) (q : Fin 128), i = ix2 r q := ⟨i 0, i 1, eq_ix2 i⟩
  show (∑ k : Fin 256, A (ix2 r k) * transpose S256x128 [1, 0] Wl transposes_S128x256_S256x128_1_0 (ix2 k q))
        + (∑ k : Fin 256, X (ix2 r k) * transpose S256x128 [1, 0] Wr transposes_S128x256_S256x128_1_0 (ix2 k q))
        + shapeCast S1x128 b shapeCasts_S128_S1x128 (ix2 (0 : Fin 1) q)
    = (∑ k : Fin 256, A (ix2 r k) * Wl (ix2 q k)) + (∑ k : Fin 256, X (ix2 r k) * Wr (ix2 q k)) + b (ix1 q)
  have hl : ∀ k : Fin 256, transpose S256x128 [1, 0] Wl transposes_S128x256_S256x128_1_0 (ix2 k q) = Wl (ix2 q k) :=
    fun k => transpose_ix2_apply Wl _ k q
  have hr : ∀ k : Fin 256, transpose S256x128 [1, 0] Wr transposes_S128x256_S256x128_1_0 (ix2 k q) = Wr (ix2 q k) :=
    fun k => transpose_ix2_apply Wr _ k q
  simp only [hl, hr, shapeCast_a_1a_apply]

/-! ## The boundary contents, read back to the arguments -/

variable (m : (ℓ : Loc nD τ sig) → Buf (Elt Ideal) ℓ) (ρ : Dev nD → PrngReg)

theorem V1_mean (c : Dev nD) : V1 m ρ c main_v22
    = mean128 (m ((c : Thread nD τ).loc main_arg0)) (srcIds (m ((c : Thread nD τ).loc main_arg1))) (dstIds (m ((c : Thread nD τ).loc main_arg1))) := by
  show StableHlo.after hostOps0 (W0 m ρ c) (Proc.devRef .tc main_v22) = _
  after_results_simp
  rfl

theorem V1_feat (c : Dev nD) : V1 m ρ c main_arg0 = m ((c : Thread nD τ).loc main_arg0) := by
  show StableHlo.after hostOps0 (W0 m ρ c) (Proc.devRef .tc main_arg0) = _
  after_results_simp

theorem V1_wl (c : Dev nD) : V1 m ρ c main_v23
    = transpose S128x256 [1, 0] (m ((c : Thread nD τ).loc main_arg2)) transposes_S256x128_S128x256_1_0 := by
  show StableHlo.after hostOps0 (W0 m ρ c) (Proc.devRef .tc main_v23) = _
  after_results_simp

theorem V1_wr (c : Dev nD) : V1 m ρ c main_v24
    = transpose S128x256 [1, 0] (m ((c : Thread nD τ).loc main_arg4)) transposes_S256x128_S128x256_1_0 := by
  show StableHlo.after hostOps0 (W0 m ρ c) (Proc.devRef .tc main_v24) = _
  after_results_simp

theorem V1_bias (c : Dev nD) : V1 m ρ c main_v25
    = shapeCast S1x256 (m ((c : Thread nD τ).loc main_arg3)) shapeCasts_S256_S1x256 := by
  show StableHlo.after hostOps0 (W0 m ρ c) (Proc.devRef .tc main_v25) = _
  after_results_simp
  rfl

/-- The hidden features: what the first region leaves in its result array. -/
theorem hidden_value (c : Dev nD) : W2 m ρ c (Proc.devRef .tc main_v26)
    = Cert.Sage.hidden
        (mean128 (m ((c : Thread nD τ).loc main_arg0)) (srcIds (m ((c : Thread nD τ).loc main_arg1))) (dstIds (m ((c : Thread nD τ).loc main_arg1))))
        (m ((c : Thread nD τ).loc main_arg0)) (m ((c : Thread nD τ).loc main_arg2)) (m ((c : Thread nD τ).loc main_arg4))
        (m ((c : Thread nD τ).loc main_arg3)) := by
  refine (W2_arr m ρ c 5).trans ?_
  rw [Region0.final (V1 m ρ) c, V1_mean, V1_feat, V1_wl, V1_wr, V1_bias]
  exact hiddenStaged_eq _ _ _ _ _

/-- The id rows and the second layer's parameters are untouched by the first region. -/
theorem W2_src (c : Dev nD) : W2 m ρ c (Proc.devRef .tc main_v1) = srcIds (m ((c : Thread nD τ).loc main_arg1)) := by
  refine (W2_of_ne m ρ c main_v1 (by decide)).trans ?_
  show StableHlo.after hostOps0 (W0 m ρ c) (Proc.devRef .tc main_v1) = _
  after_results_simp
  rfl

theorem W2_dst (c : Dev nD) : W2 m ρ c (Proc.devRef .tc main_v3) = dstIds (m ((c : Thread nD τ).loc main_arg1)) := by
  refine (W2_of_ne m ρ c main_v3 (by decide)).trans ?_
  show StableHlo.after hostOps0 (W0 m ρ c) (Proc.devRef .tc main_v3) = _
  after_results_simp
  rfl

theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp

theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp

theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp

theorem V3_mean (c : Dev nD) : V3 m ρ c main_v45
    = mean256 (W2 m ρ c (Proc.devRef .tc main_v26)) (W2 m ρ c (Proc.devRef .tc main_v1)) (W2 m ρ c (Proc.devRef .tc main_v3)) := by
  show StableHlo.after hostOps1 (W2 m ρ c) (Proc.devRef .tc main_v45) = _
  after_results_simp
  rfl

theorem V3_feat (c : Dev nD) : V3 m ρ c main_v26 = W2 m ρ c (Proc.devRef .tc main_v26) := by
  show StableHlo.after hostOps1 (W2 m ρ c) (Proc.devRef .tc main_v26) = _
  after_results_simp

theorem V3_wl (c : Dev nD) : V3 m ρ c main_v46
    = transpose S256x128 [1, 0] (W2 m ρ c (Proc.devRef .tc main_arg5)) transposes_S128x256_S256x128_1_0 := by
  show StableHlo.after hostOps1 (W2 m ρ c) (Proc.devRef .tc main_v46) = _
  after_results_simp

theorem V3_wr (c : Dev nD) : V3 m ρ c main_v47
    = transpose S256x128 [1, 0] (W2 m ρ c (Proc.devRef .tc main_arg7)) transposes_S128x256_S256x128_1_0 := by
  show StableHlo.after hostOps1 (W2 m ρ c) (Proc.devRef .tc main_v47) = _
  after_results_simp

theorem V3_bias (c : Dev nD) : V3 m ρ c main_v48
    = shapeCast S1x128 (W2 m ρ c (Proc.devRef .tc main_arg6)) shapeCasts_S128_S1x128 := by
  show StableHlo.after hostOps1 (W2 m ρ c) (Proc.devRef .tc main_v48) = _
  after_results_simp
  rfl

/-- The network of the argument arrays, the neighbourhood means taken along the argument edge list. -/
def result (c : Dev nD) : Buf (Elt Ideal) ((c : Thread nD τ).loc main_v49) :=
  Cert.Sage.network
    (fun f => mean128 f (srcIds (m ((c : Thread nD τ).loc main_arg1))) (dstIds (m ((c : Thread nD τ).loc main_arg1))))
    (fun h => mean256 h (srcIds (m ((c : Thread nD τ).loc main_arg1))) (dstIds (m ((c : Thread nD τ).loc main_arg1))))
    (m ((c : Thread nD τ).loc main_arg0)) (m ((c : Thread nD τ).loc main_arg2)) (m ((c : Thread nD τ).loc main_arg4))
    (m ((c : Thread nD τ).loc main_arg3)) (m ((c : Thread nD τ).loc main_arg5)) (m ((c : Thread nD τ).loc main_arg7))
    (m ((c : Thread nD τ).loc main_arg6))

/-- What the second region leaves in the result buffer is the network of the arguments. -/
theorem result_value (c : Dev nD) : W4 m ρ c (Proc.devRef .tc main_v49) = result m c := by
  refine (W4_arr m ρ c 5).trans ?_
  rw [Region1.final (V3 m ρ) c, V3_mean, V3_feat, V3_wl, V3_wr, V3_bias, W2_src, W2_dst, W2_arg5, W2_arg6, W2_arg7,
    hidden_value]
  exact outputStaged_eq _ _ _ _ _

end Cert.KernelIdeal.RunValue

end
-- ==== Proof.RefValue.lean ====
/-
  The idealized reference's result, as the network of the specification applied to the argument arrays.

  The reference is a straight line of host operations, read one at a time. Its neighbourhood means are the same
  chain of operations as the kernel program's (`mean₁_eq`, `mean₂_eq`: the two programs' dimension records are
  the same records). Its dense layers are whole-array products: at node `r`, channel `q` the first is
      (∑ k, A r k · Wl q k + b q) + ∑ k, X r k · Wr q k,
  the bias added before the second product — the specification's layer by commutativity and associativity of
  addition on the extended reals (`Sage.layerAt_eq_biasFirst`).
-/
import proofs.«133177_j2405181685958_1_alg».proof.Proof.Gen.ReferenceIdeal.Run
import proofs.«133177_j2405181685958_1_alg».proof.Proof.Gen.ReferenceIdeal.Read
import proofs.«133177_j2405181685958_1_alg».proof.Proof.Spec
import proofs.«133177_j2405181685958_1_alg».proof.Proof.Mean

noncomputable section

namespace Cert.ReferenceIdeal.RefValue

open Cert.ReferenceIdeal Cert.ReferenceIdeal.Gen Cert.ReferenceIdeal.Read
open Idealize.ShloMosaic Idealize.ShloMosaic.ValueIdx

variable (x0 : (⟨S50000x128, .f32⟩ : BufTy).Contents (Elt Ideal)) (x1 : (⟨S2x640000, .i32⟩ : BufTy).Contents (Elt Ideal))
  (x2 : (⟨S256x128, .f32⟩ : BufTy).Contents (Elt Ideal)) (x3 : (⟨S256, .f32⟩ : BufTy).Contents (Elt Ideal))
  (x4 : (⟨S256x128, .f32⟩ : BufTy).Contents (Elt Ideal)) (x5 : (⟨S128x256, .f32⟩ : BufTy).Contents (Elt Ideal))
  (x6 : (⟨S128, .f32⟩ : BufTy).Contents (Elt Ideal)) (x7 : (⟨S128x256, .f32⟩ : BufTy).Contents (Elt Ideal))

/-- The reference's first neighbourhood mean is the shared chain at width 128. -/
theorem mean₁_eq : val_main_v22 (F := Ideal) x0 x1
    = Cert.KernelIdeal.Mean.mean128 x0 (Cert.KernelIdeal.Mean.srcIds x1) (Cert.KernelIdeal.Mean.dstIds x1) := by
  unfold val_main_v22 val_main_v21 val_main_v20 val_main_v19 val_main_v18 val_main_cst_3 val_main_v17 val_main_v16 val_main_v15
    val_main_cst_2 val_main_v14 val_main_cst_1 val_main_v13 val_main_v12 val_main_v11 val_main_cst val_main_v10 val_main_v9 val_main_v8
    val_main_v7 val_main_v6 val_main_c_0 val_main_v5 val_main_v4 val_main_c val_main_v3 val_main_v2 val_main_v1 val_main_v0
  rfl

/-- The reference's second neighbourhood mean is the shared chain at width 256, of the reference's hidden features. -/
theorem mean₂_eq : val_main_v54 (F := Ideal) x0 x1 x2 x3 x4
    = Cert.KernelIdeal.Mean.mean256 (val_main_v31 (F := Ideal) x0 x1 x2 x3 x4) (Cert.KernelIdeal.Mean.srcIds x1)
        (Cert.KernelIdeal.Mean.dstIds x1) := by
  unfold val_main_v54 val_main_v53 val_main_v52 val_main_v51 val_main_v50 val_main_cst_9 val_main_v49 val_main_v48 val_main_v47
    val_main_cst_8 val_main_v46 val_main_cst_7 val_main_v45 val_main_v44 val_main_v43 val_main_cst_6 val_main_v42 val_main_v41 val_main_v40
    val_main_v39 val_main_v38 val_main_c_5 val_main_v37 val_main_v36 val_main_c_4 val_main_v35 val_main_v34 val_main_v33 val_main_v32
  rfl

/-- The reference's hidden features are the specification's hidden layer of its first mean. -/
theorem hidden_eq : val_main_v31 (F := Ideal) x0 x1 x2 x3 x4
    = Cert.Sage.hidden (val_main_v22 (F := Ideal) x0 x1) x0 x2 x4 x3 := by
  funext i
  obtain ⟨r, q, rfl⟩ : ∃ (r : Fin 50000) (q : Fin 256), i = ix2 r q := ⟨i 0, i 1, eq_ix2 i⟩
  rw [val_main_v31_apply, val_main_v30_apply, val_main_v27_apply, val_main_v24_apply, val_main_v29_apply,
    val_main_v26_apply, val_main_v25_apply, val_main_call0_v0_apply, val_main_call0_cst_apply]
  simp only [val_main_v23_apply, val_main_v28_apply]
  have hl : ∀ k : Fin 128, lidx_main_v24 (ix2 r q) k = ix2 r k :=
    fun k => funext fun a => match a with | ⟨0, _⟩ => rfl | ⟨1, _⟩ => rfl
  have hr : ∀ k : Fin 128, idx_main_v23 (ridx_main_v24 (ix2 r q) k) = ix2 q k :=
    fun k => funext fun a => match a with | ⟨0, _⟩ => rfl | ⟨1, _⟩ => rfl
  have hl' : ∀ k : Fin 128, lidx_main_v29 (ix2 r q) k = ix2 r k :=
    fun k => funext fun a => match a with | ⟨0, _⟩ => rfl | ⟨1, _⟩ => rfl
  have hr' : ∀ k : Fin 128, idx_main_v28 (ridx_main_v29 (ix2 r q) k) = ix2 q k :=
    fun k => funext fun a => match a with | ⟨0, _⟩ => rfl | ⟨1, _⟩ => rfl
  have hb : idx_main_v25 (idx_main_v26 (ix2 r q)) = ix1 q :=
    funext fun a => match a with | ⟨0, _⟩ => rfl
  simp only [hl, hr, hl', hr', hb]
  exact congrArg (fun y => max y (Ideal.ofBits .f32 0x00000000#32))
    (Cert.Sage.layerAt_eq_biasFirst (val_main_v22 (F := Ideal) x0 x1) x0 x2 x4 x3 r q)

/-- The reference's result is the specification's output layer of its second mean and its hidden features. -/
theorem output_eq : val_main_v62 (F := Ideal) x0 x1 x2 x3 x4 x5 x6 x7
    = Cert.Sage.output (val_main_v54 (F := Ideal) x0 x1 x2 x3 x4) (val_main_v31 (F := Ideal) x0 x1 x2 x3 x4) x5 x7 x6 := by
  funext i
  obtain ⟨r, q, rfl⟩ : ∃ (r : Fin 50000) (q : Fin 128), i = ix2 r q := ⟨i 0, i 1, eq_ix2 i⟩
  rw [val_main_v62_apply, val_main_v59_apply, val_main_v56_apply, val_main_v61_apply, val_main_v58_apply, val_main_v57_apply]
  simp only [val_main_v55_apply, val_main_v60_apply]
  have hl : ∀ k : Fin 256, lidx_main_v56 (ix2 r q) k = ix2 r k :=
    fun k => funext fun a => match a with | ⟨0, _⟩ => rfl | ⟨1, _⟩ => rfl
  have hr : ∀ k : Fin 256, idx_main_v55 (ridx_main_v56 (ix2 r q) k) = ix2 q k :=
    fun k => funext fun a => match a with | ⟨0, _⟩ => rfl | ⟨1, _⟩ => rfl
  have hl' : ∀ k : Fin 256, lidx_main_v61 (ix2 r q) k = ix2 r k :=
    fun k => funext fun a => match a with | ⟨0, _⟩ => rfl | ⟨1, _⟩ => rfl
  have hr' : ∀ k : Fin 256, idx_main_v60 (ridx_main_v61 (ix2 r q) k) = ix2 q k :=
    fun k => funext fun a => match a with | ⟨0, _⟩ => rfl | ⟨1, _⟩ => rfl
  have hb : idx_main_v57 (idx_main_v58 (ix2 r q)) = ix1 q :=
    funext fun a => match a with | ⟨0, _⟩ => rfl
  simp only [hl, hr, hl', hr', hb]
  exact Cert.Sage.layerAt_eq_biasFirst (val_main_v54 (F := Ideal) x0 x1 x2 x3 x4) (val_main_v31 (F := Ideal) x0 x1 x2 x3 x4) x5 x7 x6 r q

/-- The reference's result is the network of its arguments, the neighbourhood means the shared chains. -/
theorem result_eq : val_main_v62 (F := Ideal) x0 x1 x2 x3 x4 x5 x6 x7
    = Cert.Sage.network
        (fun f => Cert.KernelIdeal.Mean.mean128 f (Cert.KernelIdeal.Mean.srcIds x1) (Cert.KernelIdeal.Mean.dstIds x1))
        (fun h => Cert.KernelIdeal.Mean.mean256 h (Cert.KernelIdeal.Mean.srcIds x1) (Cert.KernelIdeal.Mean.dstIds x1))
        x0 x2 x4 x3 x5 x7 x6 := by
  rw [output_eq, mean₂_eq, hidden_eq, mean₁_eq]
  rfl

end Cert.ReferenceIdeal.RefValue

end
-- ==== Proof.lean ====
/-
  The certificate of a two-layer SAGE network: the Pallas program (neighbourhood means on the host, each dense
  layer a row-blocked kernel) against its jnp reference, equal as extended reals.

  Both programs take, twice, the mean of every node's in-neighbour rows (the same host operations on the same edge
  list) and apply a dense layer  mean · Wlᵀ + x · Wrᵀ + b,  with `max · 0` after the first. The kernel computes a
  layer 2000 rows at a time, on bf16-rounded operands (the identity on extended reals), adding the bias last; the
  reference computes it over all 50000 rows at once, adding the bias before the second product. Row by row and
  channel by channel the two are the same finite sums of products, grouped differently; addition on the extended
  reals is commutative and associative at every value, so they agree whatever the inputs hold, and the input
  precondition is not used.

  The frames of the two kernel programs are the generated ones; the reference's frame is its generated run with the
  result dropped; the idealization rewrote nothing, so `preserves` is `True`. For `algebraic` the kernel program's
  run ends with the result buffer at the network of its arguments (`KernelIdeal.RunValue.result_value`), the
  reference's run at the same network of its own (`ReferenceIdeal.RefValue.result_eq`), and the arguments agree.
-/
import proofs.«133177_j2405181685958_1_alg».proof.Defs
import proofs.«133177_j2405181685958_1_alg».proof.Proof.Gen.Kernel
import proofs.«133177_j2405181685958_1_alg».proof.Proof.Gen.Kernel.Frame
import proofs.«133177_j2405181685958_1_alg».proof.Proof.Gen.KernelIdeal
import proofs.«133177_j2405181685958_1_alg».proof.Proof.Gen.KernelIdeal.Frame
import proofs.«133177_j2405181685958_1_alg».proof.Proof.Gen.ReferenceIdeal
import proofs.«133177_j2405181685958_1_alg».proof.Proof.Gen.ReferenceIdeal.Run
import proofs.«133177_j2405181685958_1_alg».proof.Proof.Gen.ReferenceIdeal.Read
import proofs.«133177_j2405181685958_1_alg».proof.Proof.Gen.Pre_finite_inputs
import proofs.«133177_j2405181685958_1_alg».proof.Proof.KExit
import proofs.«133177_j2405181685958_1_alg».proof.Proof.KValue
import proofs.«133177_j2405181685958_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network of the (agreeing) arguments. -/
theorem algebraic : Cert.algebraic_KernelIdeal_ReferenceIdeal := by
  intro m ρ m' ρ' _ hagree
  refine ⟨fun c => Cert.KernelIdeal.RunValue.result m c, ?_, ?_⟩
  · exact (θ_run Cert.KernelIdeal.defs _ _).mono
      (fun r h c => ⟨(h c).1.trans (Cert.KernelIdeal.RunValue.result_value m ρ c), (h c).2⟩)
      (Cert.KernelIdeal.GenP.run_exit (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v62_eq, Cert.ReferenceIdeal.RefValue.result_eq, e0, e1, e2, e3, e4, e5, e6, e7]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
